-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x10647x5 : Shape := ⟨3, ![512, 10647, 5]⟩
abbrev S_ : Shape := ⟨0, ![]⟩

class Facts : Prop where
  bcast_S_S512x10647x5 : S_.BroadcastsInDim S512x10647x5 (![] : Fin 0 → Fin S512x10647x5.rank)
  reducesTo_S512x10647x5_S_d0_1_2 : S512x10647x5.ReducesTo [0, 1, 2] S_
  h_S_ : 0 < S_.numel

variable [Facts]

def fn {F : FTy → Type} [FloatOps F] (main_arg0 : FVec F S512x10647x5 .f32) (main_arg1 : FVec F S512x10647x5 .f32) : IVec S_ 1 :=
  let main_v0 : FVec F S512x10647x5 .f32 := Host.absf main_arg0
  let main_cst : FVec F S_ .f32 := constant S_ .f32 0x7F800000#32
  let main_v1 : FVec F S512x10647x5 .f32 := broadcastInDim S512x10647x5 ![] bcast_S_S512x10647x5 main_cst
  let main_v2 : IVec S512x10647x5 1 := cmpf .olt main_v0 main_v1
  let main_c : IVec S_ 1 := constantI S_ 1 1#1
  let main_v3 : IVec S_ 1 := (fun x v => Host.reduce IntOp.andi x v reducesTo_S512x10647x5_S_d0_1_2 h_S_) main_v2 main_c
  let main_v4 : FVec F S512x10647x5 .f32 := Host.absf main_arg1
  let main_cst_0 : FVec F S_ .f32 := constant S_ .f32 0x7F800000#32
  let main_v5 : FVec F S512x10647x5 .f32 := broadcastInDim S512x10647x5 ![] bcast_S_S512x10647x5 main_cst_0
  let main_v6 : IVec S512x10647x5 1 := cmpf .olt main_v4 main_v5
  let main_c_1 : IVec S_ 1 := constantI S_ 1 1#1
  let main_v7 : IVec S_ 1 := (fun x v => Host.reduce IntOp.andi x v reducesTo_S512x10647x5_S_d0_1_2 h_S_) main_v6 main_c_1
  let main_v8 : IVec S_ 1 := andi main_v3 main_v7
  main_v8
-- ==== Kernel.lean ====
abbrev S512x10647x5 : Shape := ⟨3, ![512, 10647, 5]⟩
abbrev S5451264x5 : Shape := ⟨2, ![5451264, 5]⟩
abbrev S2x1x1 : Shape := ⟨3, ![2, 1, 1]⟩
abbrev S16128x5 : Shape := ⟨2, ![16128, 5]⟩
abbrev S1x1x1 : Shape := ⟨3, ![1, 1, 1]⟩
abbrev S1x1 : Shape := ⟨2, ![1, 1]⟩
abbrev S16128x1 : Shape := ⟨2, ![16128, 1]⟩
abbrev S16128 : Shape := ⟨1, ![16128]⟩
abbrev S1 : Shape := ⟨1, ![1]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S512x10647x5, .f32⟩
  | .hbm, ⟨1, _⟩ => ⟨S512x10647x5, .f32⟩
  | .hbm, ⟨2, _⟩ => ⟨S5451264x5, .f32⟩
  | .hbm, ⟨3, _⟩ => ⟨S5451264x5, .f32⟩
  | .hbm, ⟨4, _⟩ => ⟨S2x1x1, .f32⟩
  | .hbm, ⟨5, _⟩ => ⟨S_, .f32⟩
  | .hbm, ⟨6, _⟩ => ⟨S_, .f32⟩
  | .local _ .vmem, ⟨0, _⟩ => ⟨S16128x5, .f32⟩
  | .local _ .vmem, ⟨1, _⟩ => ⟨S16128x5, .f32⟩
  | .local _ .vmem, ⟨2, _⟩ => ⟨S16128x5, .f32⟩
  | .local _ .vmem, ⟨3, _⟩ => ⟨S16128x5, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | _, _ => ⟨S512x10647x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 169], ![false, false]⟩

def k0_cond2 (i : grid0.Coords) : BitVec 1 :=
  let arg1 : BitVec 32 := BitVec.ofNat 32 (i 1).val
  let c168_i32 : BitVec 32 := 168#32
  let v38 : BitVec 1 := Scalar.cmpi .eq arg1 c168_i32
  let v39 : BitVec 32 := Scalar.extui v38
  let c0_i32_14 : BitVec 32 := 0#32
  let v40 : BitVec 1 := Scalar.cmpi .ne v39 c0_i32_14
  v40

def cc0_transform_0 (i : grid0.Coords) : Fin 2 → Nat :=
  let arg0 : BitVec 32 := BitVec.ofNat 32 (i 0).val
  let arg1 : BitVec 32 := BitVec.ofNat 32 (i 1).val
  let c169_i32 : BitVec 32 := 169#32
  let v0 : BitVec 32 := Scalar.muli arg0 c169_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c169_i32 : BitVec 32 := 169#32
  let v0 : BitVec 32 := Scalar.muli arg0 c169_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16128x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16128x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S512x10647x5_S5451264x5 : S512x10647x5.ShapeCasts S5451264x5
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16128x5_S16128x5_0_0 : ∀ a, (![0, 0] : Fin 2 → Nat) a + S16128x5.size a ≤ S16128x5.size a
  h_S16128x5 : 0 < S16128x5.numel
  shapeCasts_S16128x5_S16128x5 : S16128x5.ShapeCasts S16128x5
  slices_S16128x5_o0_0_S16128x1 : S16128x5.Slices ![0, 0] S16128x1
  natLt_1_32 : 1 < 32
  broadcasts_S16128x1_S16128x5 : S16128x1.Broadcasts S16128x5
  reduces_S16128x5_S16128 : S16128x5.Reduces [1] S16128
  shapeCasts_S16128_S16128x1 : S16128.ShapeCasts S16128x1
  reduces_S16128x1_S1 : S16128x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16128x5.size a ≤ S5451264x5.size a
  hwx0_0 : ∀ i : grid0.Coords, EltTy.bits .f32 = 32 ∨ (Rect.block (s := S5451264x5) S16128x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16128x5.size a ≤ S5451264x5.size a
  hwx0_1 : ∀ i : grid0.Coords, EltTy.bits .f32 = 32 ∨ (Rect.block (s := S5451264x5) S16128x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v0) S16128x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16128x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S512x10647x5 : Shape := ⟨3, ![512, 10647, 5]⟩
abbrev S512x10647x1 : Shape := ⟨3, ![512, 10647, 1]⟩
abbrev S512x10647 : Shape := ⟨2, ![512, 10647]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S512x10647x5, .f32⟩
  | .hbm, ⟨1, _⟩ => ⟨S512x10647x5, .f32⟩
  | .hbm, ⟨2, _⟩ => ⟨S512x10647x1, .f32⟩
  | .hbm, ⟨3, _⟩ => ⟨S512x10647, .f32⟩
  | .hbm, ⟨4, _⟩ => ⟨S_, .f32⟩
  | .hbm, ⟨5, _⟩ => ⟨S512x10647, .f32⟩
  | .hbm, ⟨6, _⟩ => ⟨S512x10647, .i1⟩
  | .hbm, ⟨7, _⟩ => ⟨S512x10647, .f32⟩
  | .hbm, ⟨8, _⟩ => ⟨S512x10647x5, .f32⟩
  | .hbm, ⟨9, _⟩ => ⟨S512x10647x5, .f32⟩
  | .hbm, ⟨10, _⟩ => ⟨S512x10647x1, .f32⟩
  | .hbm, ⟨11, _⟩ => ⟨S512x10647x5, .f32⟩
  | .hbm, ⟨12, _⟩ => ⟨S512x10647x5, .f32⟩
  | .hbm, ⟨13, _⟩ => ⟨S_, .f32⟩
  | .hbm, ⟨14, _⟩ => ⟨S_, .f32⟩
  | .hbm, ⟨15, _⟩ => ⟨S512x10647x1, .f32⟩
  | .hbm, ⟨16, _⟩ => ⟨S512x10647, .f32⟩
  | .hbm, ⟨17, _⟩ => ⟨S512x10647, .f32⟩
  | .hbm, ⟨18, _⟩ => ⟨S512x10647, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S512x10647x1, .f32⟩
  | .hbm, ⟨24, _⟩ => ⟨S512x10647, .f32⟩
  | .hbm, ⟨25, _⟩ => ⟨S512x10647, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S512x10647x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  slices_S512x10647x5_S512x10647x1_0_0_0 : S512x10647x5.Slices ![0, 0, 0] S512x10647x1
  shapeCasts_S512x10647x1_S512x10647 : S512x10647x1.ShapeCasts S512x10647
  bcast_S_S512x10647 : S_.BroadcastsInDim S512x10647 (![] : Fin 0 → Fin S512x10647.rank)
  bcast_S512x10647_S512x10647x1_0_1 : S512x10647.BroadcastsInDim S512x10647x1 (![0, 1] : Fin 2 → Fin S512x10647x1.rank)
  bcast_S512x10647x1_S512x10647x5_0_1_2 : S512x10647x1.BroadcastsInDim S512x10647x5 (![0, 1, 2] : Fin 3 → Fin S512x10647x5.rank)
  reducesTo_S512x10647x5_S_d0_1_2 : S512x10647x5.ReducesTo [0, 1, 2] S_
  h_S_ : 0 < S_.numel
  reducesTo_S512x10647_S_d0_1 : S512x10647.ReducesTo [0, 1] S_

variable [Facts₀]

class Facts : Prop extends Facts₀ where

variable [Facts]
-- ==== Proof.LibBlockSum.lean ====
/-
  Sums over an index range cut into equal blocks, and the running sum a blocked accumulation builds: general facts
  about finite sums in an additive commutative monoid, stated for Fin (a * b) against Fin a × Fin b.
-/
import Mathlib.Algebra.BigOperators.Fin
import Mathlib.Logic.Equiv.Fin.Basic
import Mathlib.Tactic.Ring
import Mathlib.Tactic.Linarith

namespace LibBlockSum

open Finset

/-- A sum over a * b indices is the sum over a blocks of the sums over the b indices of each block; index
    b·p + q is entry q of block p. -/
theorem sum_blocks {M : Type*} [AddCommMonoid M] (a b : ℕ) (f : Fin (a * b) → M) :
    ∑ j, f j = ∑ p : Fin a, ∑ q : Fin b, f ⟨b * p.val + q.val, by
      have hp := p.isLt; have hq := q.isLt
      calc b * p.val + q.val < b * p.val + b := by omega
        _ = b * (p.val + 1) := by ring
        _ ≤ b * a := Nat.mul_le_mul_left b hp
        _ = a * b := Nat.mul_comm b a⟩ := by
  rw [← Equiv.sum_comp (finProdFinEquiv : Fin a × Fin b ≃ Fin (a * b)) f, Fintype.sum_prod_type]
  refine sum_congr rfl fun p _ => sum_congr rfl fun q _ => congrArg f (Fin.ext ?_)
  simp only [finProdFinEquiv_apply_val]
  ring

/-- An accumulator that starts from its first term and adds one term per step holds, after step n, the sum of the
    terms up to n. -/
theorem acc_eq_sum {M : Type*} [AddCommMonoid M] (g : ℕ → M) (acc : ℕ → M) (h0 : acc 0 = g 0)
    (hs : ∀ n, acc (n + 1) = acc n + g (n + 1)) (n : ℕ) : acc n = ∑ k ∈ range (n + 1), g k := by
  induction n with
  | zero => simp [h0]
  | succ n ih => rw [hs, ih, sum_range_succ _ (n + 1)]

end LibBlockSum
-- ==== Proof.LibSoftmaxMean.lean ====
/-
  Extended-real algebra used to compare a softmax-weighted mean with a plain weighted mean.

  The extended reals contain the real numbers; sums, products, differences, quotients by a
  nonzero real, the exponential, the logarithm of a positive real, and the maximum of two reals
  all stay inside the reals. On reals the following identity holds: for weights a_s > 0, scores
  c_s, values h_s and any real M,

      sum_s [ exp (c_s / 1 + log a_s - M) / (0 + sum_t exp (c_t / 1 + log a_t - M)) ] h_s
        = (sum_s a_s exp (c_s) h_s) / (sum_s a_s exp (c_s)),

  because exp (c + log a - M) = a exp (c) exp (-M) and the factor exp (-M) > 0 is common to the
  numerator and the denominator.
-/
import Idealize.ShloMosaic.PureOps.Ideal
import Mathlib.Data.Finset.Fold

noncomputable section

namespace Cert.LibSoftmaxMean

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.one : IsReal 1 := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem IsReal.of_ne {x : EReal} (ht : x ≠ ⊤) (hb : x ≠ ⊥) : IsReal x :=
  ⟨x.toReal, (EReal.coe_toReal ht hb).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (hf : ∀ i, IsReal (f i)) :
    IsReal (∑ i ∈ s, f i) := by
  classical
  induction s using Finset.induction_on with
  | empty => rw [Finset.sum_empty]; exact IsReal.zero
  | insert a s ha ih => rw [Finset.sum_insert ha]; exact (hf a).add ih

/-- A real divided by a nonzero real is a real. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun e => h0 (by rw [e]; rfl)
  rw [Ideal.div_coe hb]; exact (IsReal.coe a).mul (IsReal.coe _)

/-- The clamp max (sqrt x) e of a real x by a real e is a real, whatever the sign of x: the square
    root of a negative real is the bottom element, which the maximum discards. -/
theorem IsReal.max_sqrt {x e : EReal} (hx : IsReal x) (he : IsReal e) : IsReal (max (Ideal.sqrt x) e) := by
  obtain ⟨a, rfl⟩ := hx; obtain ⟨b, rfl⟩ := he
  rw [Ideal.sqrt_coe]
  split_ifs
  · rw [max_eq_right bot_le]; exact ⟨b, rfl⟩
  · exact ⟨max (Real.sqrt a) b, EReal.coe_strictMono.monotone.map_max⟩

theorem IsReal.exp {x : EReal} (hx : IsReal x) : IsReal (Ideal.exp x) := by
  obtain ⟨a, rfl⟩ := hx; exact ⟨Real.exp a, rfl⟩

theorem IsReal.log {x : EReal} (hx : IsReal x) (hpos : 0 < x) : IsReal (Ideal.log x) := by
  obtain ⟨a, rfl⟩ := hx
  have ha : 0 < a := EReal.coe_pos.mp hpos
  rw [Ideal.log_coe, if_neg (not_le.mpr ha)]; exact ⟨Real.log a, rfl⟩

/-- The maximum over a nonempty finite family of reals, started from any value other than the top
    element, is a real: it is below the top because every entry and the start are, and it is above
    the bottom because it is at least one of the entries. -/
theorem IsReal.fold_max {ι : Type*} (s : Finset ι) (hs : s.Nonempty) (b : EReal) (hb : b ≠ ⊤)
    (f : ι → EReal) (hf : ∀ i, IsReal (f i)) : IsReal (s.fold max b f) := by
  refine IsReal.of_ne (ne_of_lt ?_) (ne_of_gt ?_)
  · exact (Finset.fold_max_lt _).mpr ⟨lt_top_iff_ne_top.mpr hb, fun i _ => lt_top_iff_ne_top.mpr (hf i).ne_top⟩
  · obtain ⟨i, hi⟩ := hs
    exact (Finset.lt_fold_max _).mpr (Or.inr ⟨i, hi, bot_lt_iff_ne_bot.mpr (hf i).ne_bot⟩)

/-- The single-precision patterns of 1, of -inf and of the small constant, read exactly. -/
theorem ofBits_one : Ideal.ofBits .f32 0x3F800000#32 = 1 := by
  simp [Ideal.ofBits, Ideal.ieee, -EReal.coe_mul]
  norm_num

theorem ofBits_neg_inf : Ideal.ofBits .f32 0xFF800000#32 = ⊥ := by simp [Ideal.ofBits, Ideal.ieee]

theorem ofBits_zero : Ideal.ofBits .f32 0x00000000#32 = 0 := by simp [Ideal.ofBits, Ideal.ieee]

theorem ofBits_eps : ∃ e : ℝ, 0 < e ∧ Ideal.ofBits .f32 0x322BCC77#32 = (e : EReal) := by
  refine ⟨_, ?_, by simp [Ideal.ofBits, Ideal.ieee]; rfl⟩
  positivity

/-- Division by one is the identity. -/
theorem div_one (x : EReal) : Ideal.div x 1 = x := by
  have h := Ideal.div_coe (y := 1) one_ne_zero x
  rw [EReal.coe_one] at h
  rw [h]; simp

/-- The softmax-weighted mean is the plain weighted mean: for real scores C, real values H, positive
    real weights A and a real shift M, the common factor exp (-M) cancels between the numerator and
    the denominator, and exp (log a) = a turns each exponential into the weight a exp (c). -/
theorem softmax_mean {ι : Type*} [Fintype ι] [Nonempty ι] (C H A : ι → EReal) (M : EReal)
    (hC : ∀ s, IsReal (C s)) (hH : ∀ s, IsReal (H s)) (hA : ∀ s, IsReal (A s)) (hpos : ∀ s, 0 < A s)
    (hM : IsReal M) :
    ∑ s, Ideal.div (Ideal.exp (Ideal.div (C s) 1 + Ideal.log (A s) - M))
          (0 + ∑ t, Ideal.exp (Ideal.div (C t) 1 + Ideal.log (A t) - M)) * H s
      = Ideal.div (∑ s, A s * Ideal.exp (C s) * H s) (∑ s, A s * Ideal.exp (C s)) := by
  choose c hc using hC
  choose h hh using hH
  choose a ha using hA
  obtain ⟨m, rfl⟩ := hM
  have hapos : ∀ s, 0 < a s := fun s => EReal.coe_pos.mp (by rw [← ha s]; exact hpos s)
  have hexp : ∀ s, Ideal.exp (Ideal.div (C s) 1 + Ideal.log (A s) - (m : EReal))
      = ((a s * Real.exp (c s) * Real.exp (-m) : ℝ) : EReal) := by
    intro s
    rw [div_one, hc s, ha s, Ideal.log_coe, if_neg (not_le.mpr (hapos s)), ← EReal.coe_add, ← EReal.coe_sub,
      Ideal.exp_coe, sub_eq_add_neg, Real.exp_add, Real.exp_add, Real.exp_log (hapos s), mul_comm (Real.exp (c s))]
  have hZ : 0 < ∑ s, a s * Real.exp (c s) :=
    Finset.sum_pos (fun s _ => mul_pos (hapos s) (Real.exp_pos _)) Finset.univ_nonempty
  have hE : 0 < Real.exp (-m) := Real.exp_pos _
  have hden : (0 : EReal) + ∑ t, Ideal.exp (Ideal.div (C t) 1 + Ideal.log (A t) - (m : EReal))
      = (((∑ s, a s * Real.exp (c s)) * Real.exp (-m) : ℝ) : EReal) := by
    rw [zero_add, Finset.sum_mul, coe_sum]
    exact Finset.sum_congr rfl fun t _ => hexp t
  have hw : ∀ s, A s * Ideal.exp (C s) = ((a s * Real.exp (c s) : ℝ) : EReal) := by
    intro s; rw [hc s, ha s, Ideal.exp_coe, ← EReal.coe_mul]
  have hnum : ∑ s, A s * Ideal.exp (C s) * H s = ((∑ s, a s * Real.exp (c s) * h s : ℝ) : EReal) := by
    rw [coe_sum]
    exact Finset.sum_congr rfl fun s _ => by rw [hw s, hh s, ← EReal.coe_mul]
  have hsum : ∑ s, A s * Ideal.exp (C s) = ((∑ s, a s * Real.exp (c s) : ℝ) : EReal) := by
    rw [coe_sum]
    exact Finset.sum_congr rfl fun s _ => hw s
  have hterm : ∀ s, Ideal.div (Ideal.exp (Ideal.div (C s) 1 + Ideal.log (A s) - (m : EReal)))
        (((∑ s, a s * Real.exp (c s)) * Real.exp (-m) : ℝ) : EReal) * H s
      = ((a s * Real.exp (c s) * h s * (1 / ∑ s, a s * Real.exp (c s)) : ℝ) : EReal) := by
    intro s
    rw [hexp s, Ideal.div_coe (ne_of_gt (mul_pos hZ hE)), hh s, ← EReal.coe_mul, ← EReal.coe_mul]
    congr 1
    field_simp
  rw [hden]
  refine (Finset.sum_congr rfl fun s _ => hterm s).trans ?_
  rw [hnum, hsum, Ideal.div_coe (ne_of_gt hZ), ← EReal.coe_mul, ← coe_sum, ← Finset.sum_mul]

end Cert.LibSoftmaxMean

end
-- ==== Proof.LossSpec.lean ====
/-
  The quantity both programs compute, on the extended reals.

  A row has five features. A row of the labels is selected when its first feature exceeds the threshold; its weight is
  then 1, otherwise 0. Over M rows the loss is

      (Σ_ρ Σ_f (y ρ f − x ρ f)² · w ρ  +  α · Σ_ρ (x ρ 0)²)  −  α · Σ_ρ (x ρ 0)² · w ρ .

  One program forms it from the three whole sums; the other cuts the rows into P blocks of R rows, forms
  (D_p + α · B_p) − α · C_p of each block's three sums and adds these up. The two agree when every entry and α are real
  numbers: then each block sum is a real number, and on real numbers a difference of sums is the sum of the differences
  and a factor distributes over a sum. (With an infinite entry they can differ: ∞ − ∞.)
-/
import proofs.«130284_j60782377173145_1_alg».proof.Proof.LibBlockSum
import proofs.«130284_j60782377173145_1_alg».proof.Proof.LibSoftmaxMean
import Idealize.ShloMosaic.PureOps.Ideal
import Idealize.ShloMosaic.PureOps.Ideal.Laws
import Idealize.ShloMosaic.Lib.ValueIdx

open scoped BigOperators

noncomputable section

namespace Cert.Loss

open Idealize.ShloMosaic Cert.LibSoftmaxMean

/-- The threshold a label's first feature is compared with, and the factor of the two confidence sums: the two
    single-precision words both programs spell, read exactly. -/
abbrev thr : EReal := Ideal.ofBits .f32 0x3F000000#32
abbrev alpha : EReal := Ideal.ofBits .f32 0x3DCCCCCD#32

/-- The factor is a real number. -/
theorem alpha_real : IsReal alpha := ⟨_, by simp [alpha, Ideal.ofBits, Ideal.ieee]; rfl⟩

/-- A row's weight: 1 when the label's first feature exceeds the threshold, else 0. -/
def weight (v : EReal) : EReal := if thr < v then 1 else 0

theorem weight_real (v : EReal) : IsReal (weight v) := by
  unfold weight; split_ifs
  · exact IsReal.one
  · exact IsReal.zero

/-- A row's weighted squared error, summed over its features. -/
def sqErr (x y : Fin 5 → EReal) : EReal := ∑ f : Fin 5, (y f - x f) * (y f - x f) * weight (y 0)
/-- A row's squared predicted confidence, -/
def conf (x : Fin 5 → EReal) : EReal := x 0 * x 0
/-- and the same weighted. -/
def confSel (x y : Fin 5 → EReal) : EReal := x 0 * x 0 * weight (y 0)

theorem sqErr_real {x y : Fin 5 → EReal} (hx : ∀ f, IsReal (x f)) (hy : ∀ f, IsReal (y f)) : IsReal (sqErr x y) :=
  IsReal.sum _ _ fun f => (((hy f).sub (hx f)).mul ((hy f).sub (hx f))).mul (weight_real _)
theorem conf_real {x : Fin 5 → EReal} (hx : ∀ f, IsReal (x f)) : IsReal (conf x) := (hx 0).mul (hx 0)
theorem confSel_real {x : Fin 5 → EReal} (hx : ∀ f, IsReal (x f)) (y : Fin 5 → EReal) : IsReal (confSel x y) :=
  ((hx 0).mul (hx 0)).mul (weight_real _)

/-- The loss over M rows, from the three whole sums. -/
def loss {M : ℕ} (X Y : Fin M → Fin 5 → EReal) : EReal :=
  (∑ ρ, sqErr (X ρ) (Y ρ) + alpha * ∑ ρ, conf (X ρ)) - alpha * ∑ ρ, confSel (X ρ) (Y ρ)

/-- One block's contribution: (D + α · B) − α · C of the block's three sums. -/
def blockTerm {R : ℕ} (x y : Fin R → Fin 5 → EReal) : EReal :=
  (∑ r, sqErr (x r) (y r) + alpha * ∑ r, conf (x r)) - alpha * ∑ r, confSel (x r) (y r)

/-- For real-valued D, B, C over a finite index set and a real factor a:
    Σ_p ((D p + a · B p) − a · C p) = (Σ D + a · Σ B) − a · Σ C. -/
theorem regroup {ι : Type*} [Fintype ι] {a : EReal} (ha : IsReal a) (D B C : ι → EReal)
    (hD : ∀ p, IsReal (D p)) (hB : ∀ p, IsReal (B p)) (hC : ∀ p, IsReal (C p)) :
    ∑ p, ((D p + a * B p) - a * C p) = (∑ p, D p + a * ∑ p, B p) - a * ∑ p, C p := by
  obtain ⟨a', rfl⟩ := ha
  choose d hd using hD
  choose b hb using hB
  choose c hc using hC
  simp only [hd, hb, hc, ← coe_sum, ← EReal.coe_mul, ← EReal.coe_add, ← EReal.coe_sub]
  congr 1
  rw [Finset.sum_sub_distrib, Finset.sum_add_distrib, Finset.mul_sum, Finset.mul_sum]

/-- Row r of block p of P · R rows is row R · p + r. -/
def rowOf (P R : ℕ) (p : Fin P) (r : Fin R) : Fin (P * R) := ⟨R * p.val + r.val, by
  have hp := p.isLt; have hr := r.isLt
  calc R * p.val + r.val < R * p.val + R := by omega
    _ = R * (p.val + 1) := by ring
    _ ≤ R * P := Nat.mul_le_mul_left R hp
    _ = P * R := Nat.mul_comm R P⟩

/-- THE LAW. Over P blocks of R rows with real entries, the blocks' contributions add up to the loss of all rows. -/
theorem sum_blockTerm (P R : ℕ) (X Y : Fin (P * R) → Fin 5 → EReal)
    (hX : ∀ ρ f, IsReal (X ρ f)) (hY : ∀ ρ f, IsReal (Y ρ f)) :
    ∑ p : Fin P, blockTerm (fun r => X (rowOf P R p r)) (fun r => Y (rowOf P R p r)) = loss X Y := by
  unfold blockTerm loss
  rw [regroup alpha_real _ _ _ (fun p => IsReal.sum _ _ fun r => sqErr_real (hX _) (hY _))
    (fun p => IsReal.sum _ _ fun r => conf_real (hX _)) (fun p => IsReal.sum _ _ fun r => confSel_real (hX _) _)]
  rw [LibBlockSum.sum_blocks P R (fun ρ => sqErr (X ρ) (Y ρ)), LibBlockSum.sum_blocks P R (fun ρ => conf (X ρ)),
    LibBlockSum.sum_blocks P R (fun ρ => confSel (X ρ) (Y ρ))]
  rfl

end Cert.Loss

end
-- ==== Proof.LibLossSums.lean ====
/-
  Sums of a block of extended reals, read off the vector operations that form them.

  A rank-3 block `x : [A, B, C]` is summed by three one-axis reductions with two recasts in between
  (`[A, B, C] → [A, B] → [A] → [A, 1] → [1] → [1, 1]`); `rsum3` says the one entry of the result is the triple sum
  `∑ a, ∑ b, ∑ c, x (a, b, c)`. The steps are stated one by one first (`red_last`, `red_mid`, `cast_col`, `red_first`,
  `cast_one`), each at any extents. Then a sum over the whole index set of a rank-3 or rank-5 shape is written as the
  iterated sum over the coordinates (`sum_idx3`, `sum_idx5`).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibLossSums

open Idealize.ShloMosaic Idealize.ShloMosaic.ValueIdx

/-! ## One block's sum, step by step -/

/-- The index of a rank-3 block over the rank-2 index `(a, b)` with last coordinate `c` inserted is `(a, b, c)`. -/
theorem lift_last {A B C : Nat} (h : Shape.Reduces ⟨3, ![A, B, C]⟩ [2] ⟨2, ![A, B]⟩) (a : Fin A) (b : Fin B) (c : Fin C) :
    h.lift (ix2 a b) c = ix3 a b c := by
  funext d; refine Fin.ext ?_
  match d with
  | ⟨0, _⟩ => rfl
  | ⟨1, _⟩ => rfl
  | ⟨2, _⟩ => rfl

/-- Summing a rank-3 block over its last axis: at `(a, b)` the result is `∑ c, x (a, b, c)`. -/
theorem red_last {A B C : Nat} (x : FVec Ideal ⟨3, ![A, B, C]⟩ .f32)
    (h : Shape.Reduces ⟨3, ![A, B, C]⟩ [2] ⟨2, ![A, B]⟩) (hφ : FKind.Formats .f32)
    (hacc : (0x00000000#32 : BitVec 32) = 0x00000000#32) (a : Fin A) (b : Fin B) :
    multiReduction (F := Ideal) .add [2] ⟨2, ![A, B]⟩ x 0x00000000#32 h hφ hacc (ix2 a b)
      = ∑ c : Fin C, x (ix3 a b c) := by
  refine (Ideal.multiReduction_add_single x 0x00000000#32 h hφ hacc (ix2 a b)).trans ?_
  exact Finset.sum_congr rfl fun c _ => congrArg x (lift_last h a b c)

/-- The index of a rank-2 block over the rank-1 index `a` with last coordinate `b` inserted is `(a, b)`. -/
theorem lift_mid {A B : Nat} (h : Shape.Reduces ⟨2, ![A, B]⟩ [1] ⟨1, ![A]⟩) (a : Fin A) (b : Fin B) :
    h.lift (ix1 a) b = ix2 a b := by
  funext d; refine Fin.ext ?_
  match d with
  | ⟨0, _⟩ => rfl
  | ⟨1, _⟩ => rfl

/-- Summing a rank-2 block over its last axis: at `a` the result is `∑ b, y (a, b)`. -/
theorem red_mid {A B : Nat} (y : FVec Ideal ⟨2, ![A, B]⟩ .f32)
    (h : Shape.Reduces ⟨2, ![A, B]⟩ [1] ⟨1, ![A]⟩) (hφ : FKind.Formats .f32)
    (hacc : (0x00000000#32 : BitVec 32) = 0x00000000#32) (a : Fin A) :
    multiReduction (F := Ideal) .add [1] ⟨1, ![A]⟩ y 0x00000000#32 h hφ hacc (ix1 a)
      = ∑ b : Fin B, y (ix2 a b) := by
  refine (Ideal.multiReduction_add_single y 0x00000000#32 h hφ hacc (ix1 a)).trans ?_
  exact Finset.sum_congr rfl fun b _ => congrArg y (lift_mid h a b)

/-- The index of an `[A, 1]` block over the one index of `[1]` with first coordinate `a` inserted is `(a, 0)`. -/
theorem lift_first {A : Nat} (h : Shape.Reduces ⟨2, ![A, 1]⟩ [0] ⟨1, ![1]⟩) (j : (⟨1, ![1]⟩ : Shape).Idx) (a : Fin A) :
    h.lift j a = ix2 a (0 : Fin 1) := by
  funext d; refine Fin.ext ?_
  match d with
  | ⟨0, _⟩ => rfl
  | ⟨1, hd⟩ =>
    have hlt : (h.lift j a ⟨1, hd⟩).val < 1 := (h.lift j a ⟨1, hd⟩).isLt
    show (h.lift j a ⟨1, hd⟩).val = 0
    omega

/-- Summing an `[A, 1]` column over its first axis: the one entry of the result is `∑ a, z (a, 0)`. -/
theorem red_first {A : Nat} (z : FVec Ideal ⟨2, ![A, 1]⟩ .f32)
    (h : Shape.Reduces ⟨2, ![A, 1]⟩ [0] ⟨1, ![1]⟩) (hφ : FKind.Formats .f32)
    (hacc : (0x00000000#32 : BitVec 32) = 0x00000000#32) (j : (⟨1, ![1]⟩ : Shape).Idx) :
    multiReduction (F := Ideal) .add [0] ⟨1, ![1]⟩ z 0x00000000#32 h hφ hacc j
      = ∑ a : Fin A, z (ix2 a (0 : Fin 1)) := by
  refine (Ideal.multiReduction_add_single z 0x00000000#32 h hφ hacc j).trans ?_
  exact Finset.sum_congr rfl fun a _ => congrArg z (lift_first h j a)

/-- A vector `[A]` recast as a column `[A, 1]` reads, at `(a, 0)`, the vector at `a`. -/
theorem cast_col {α : Type} {A : Nat} (w : (⟨1, ![A]⟩ : Shape).Idx → α) (h : Shape.ShapeCasts ⟨1, ![A]⟩ ⟨2, ![A, 1]⟩) (a : Fin A) :
    shapeCast ⟨2, ![A, 1]⟩ w h (ix2 a (0 : Fin 1)) = w (ix1 a) := by
  refine shapeCast_apply w h _ (ix1 a) ?_
  rw [Shape.rowMajor_val_one, Shape.rowMajor_val_two]
  show a.val = a.val * 1 + 0
  omega

/-- A one-entry vector `[1]` recast as `[1, 1]` reads, at any index, the entry at any index. -/
theorem cast_one {α : Type} (w : (⟨1, ![1]⟩ : Shape).Idx → α) (h : Shape.ShapeCasts ⟨1, ![1]⟩ ⟨2, ![1, 1]⟩)
    (i : (⟨2, ![1, 1]⟩ : Shape).Idx) (j : (⟨1, ![1]⟩ : Shape).Idx) :
    shapeCast ⟨2, ![1, 1]⟩ w h i = w j := by
  refine shapeCast_apply w h i j ?_
  have h1 : ((⟨1, ![1]⟩ : Shape).rowMajor j).val < 1 := ((⟨1, ![1]⟩ : Shape).rowMajor j).isLt
  have h2 : ((⟨2, ![1, 1]⟩ : Shape).rowMajor i).val < 1 := ((⟨2, ![1, 1]⟩ : Shape).rowMajor i).isLt
  omega

/-- THE BLOCK SUM. A rank-3 block `x : [A, B, C]` summed over its last axis, then over the last axis of the `[A, B]`
    result, the `[A]` result recast as a column `[A, 1]`, summed over its first axis and the `[1]` result recast as
    `[1, 1]`: the one entry of the result is the triple sum `∑ a, ∑ b, ∑ c, x (a, b, c)`. No accumulator term is left:
    each reduction starts from the neutral word of addition. -/
theorem rsum3 {A B C : Nat} (x : FVec Ideal ⟨3, ![A, B, C]⟩ .f32)
    (h1 : Shape.Reduces ⟨3, ![A, B, C]⟩ [2] ⟨2, ![A, B]⟩) (h2 : Shape.Reduces ⟨2, ![A, B]⟩ [1] ⟨1, ![A]⟩)
    (c1 : Shape.ShapeCasts ⟨1, ![A]⟩ ⟨2, ![A, 1]⟩) (h3 : Shape.Reduces ⟨2, ![A, 1]⟩ [0] ⟨1, ![1]⟩)
    (c2 : Shape.ShapeCasts ⟨1, ![1]⟩ ⟨2, ![1, 1]⟩)
    (f1 f2 f3 : FKind.Formats .f32) (e1 e2 e3 : (0x00000000#32 : BitVec 32) = 0x00000000#32)
    (i : (⟨2, ![1, 1]⟩ : Shape).Idx) :
    shapeCast ⟨2, ![1, 1]⟩
      (multiReduction (F := Ideal) .add [0] ⟨1, ![1]⟩
        (shapeCast ⟨2, ![A, 1]⟩
          (multiReduction (F := Ideal) .add [1] ⟨1, ![A]⟩
            (multiReduction (F := Ideal) .add [2] ⟨2, ![A, B]⟩ x 0x00000000#32 h1 f1 e1)
            0x00000000#32 h2 f2 e2) c1)
        0x00000000#32 h3 f3 e3) c2 i
      = ∑ a : Fin A, ∑ b : Fin B, ∑ c : Fin C, x (ix3 a b c) := by
  rw [cast_one _ c2 i (ix1 0), red_first]
  refine Finset.sum_congr rfl fun a _ => ?_
  rw [cast_col, red_mid]
  exact Finset.sum_congr rfl fun b _ => red_last x h1 f1 e1 a b

/-- The block sum `rsum3` with each accumulator's proof typed as the reduction's own argument is (the word is the
    neutral word of addition at `f32`): the same triple sum. -/
theorem rsum3_neutral {A B C : Nat} (x : FVec Ideal ⟨3, ![A, B, C]⟩ .f32)
    (h1 : Shape.Reduces ⟨3, ![A, B, C]⟩ [2] ⟨2, ![A, B]⟩) (h2 : Shape.Reduces ⟨2, ![A, B]⟩ [1] ⟨1, ![A]⟩)
    (c1 : Shape.ShapeCasts ⟨1, ![A]⟩ ⟨2, ![A, 1]⟩) (h3 : Shape.Reduces ⟨2, ![A, 1]⟩ [0] ⟨1, ![1]⟩)
    (c2 : Shape.ShapeCasts ⟨1, ![1]⟩ ⟨2, ![1, 1]⟩)
    (f1 f2 f3 : FKind.Formats .f32) (e1 : (0x00000000#32 : BitVec 32) = FKind.add.neutral .f32 f1)
    (e2 : (0x00000000#32 : BitVec 32) = FKind.add.neutral .f32 f2) (e3 : (0x00000000#32 : BitVec 32) = FKind.add.neutral .f32 f3)
    (i : (⟨2, ![1, 1]⟩ : Shape).Idx) :
    shapeCast ⟨2, ![1, 1]⟩
      (multiReduction (F := Ideal) .add [0] ⟨1, ![1]⟩
        (shapeCast ⟨2, ![A, 1]⟩
          (multiReduction (F := Ideal) .add [1] ⟨1, ![A]⟩
            (multiReduction (F := Ideal) .add [2] ⟨2, ![A, B]⟩ x 0x00000000#32 h1 f1 e1)
            0x00000000#32 h2 f2 e2) c1)
        0x00000000#32 h3 f3 e3) c2 i
      = ∑ a : Fin A, ∑ b : Fin B, ∑ c : Fin C, x (ix3 a b c) :=
  rsum3 x h1 h2 c1 h3 c2 f1 f2 f3 rfl rfl rfl i

/-! ## Sums over index sets of rank 3 and 5 as iterated sums over the coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- A rank-5 index set is the product of its five coordinate ranges … -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- … so a sum over it is the five-fold sum over the coordinates. -/
theorem sum_idx5 {M : Type*} [AddCommMonoid M] {n0 n1 n2 n3 n4 : Nat} (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f]
  simp only [Fintype.sum_prod_type]
  rfl

end Cert.LibLossSums

end
-- ==== Proof.LossStep.lean ====
/-
  One step of the kernel on the extended reals.

  At a grid point the kernel holds a tile of R = 16128 rows of predictions x and of labels y. It sums each row's weighted
  squared errors over the five features, recasts the row sums as a column and sums the column; it sums the column of
  squared confidences with and without the weights; and it adds (D + α · B) − α · C to the accumulator. Read at the one
  entry of the [1, 1] result this is the accumulator plus the tile's block term.
-/
import proofs.«130284_j60782377173145_1_alg».proof.Proof.LossSpec
import proofs.«130284_j60782377173145_1_alg».proof.Proof.LibLossSums
import proofs.«130284_j60782377173145_1_alg».proof.Proof.Gen.KernelIdeal.Skeleton
import Idealize.ShloMosaic.Lib.ValueIdx
import Idealize.ShloMosaic.Lib.Pipeline.Value

open scoped BigOperators

noncomputable section

namespace Cert.KernelIdeal.Step

open Idealize.ShloMosaic Idealize.ShloMosaic.ValueIdx Cert.KernelIdeal Cert.KernelIdeal.Gen Cert.Loss Cert.LibLossSums

/-- A column [R, 1] summed over its rows and recast as [1, 1]: the one entry is the sum of the column. -/
theorem colsum (z : FVec Ideal S16128x1 .f32) (i : S1x1.Idx) :
    shapeCast S1x1 (multiReduction (F := Ideal) .add [0] S1 z 0x00000000#32 reduces_S16128x1_S1 (.inl rfl) rfl) shapeCasts_S1_S1x1 i
      = ∑ a : Fin 16128, z (ix2 a (0 : Fin 1)) := by
  rw [cast_one _ shapeCasts_S1_S1x1 i (ix1 0)]
  exact red_first z _ _ _ _

/-- A tile summed over its features and recast as a column: row a of the column is the sum of row a of the tile. -/
theorem rowsum (u : FVec Ideal S16128x5 .f32) (a : Fin 16128) :
    shapeCast S16128x1 (multiReduction (F := Ideal) .add [1] S16128 u 0x00000000#32 reduces_S16128x5_S16128 (.inl rfl) rfl) shapeCasts_S16128_S16128x1 (ix2 a (0 : Fin 1))
      = ∑ f : Fin 5, u (ix2 a f) := by
  rw [cast_col]
  exact red_mid u _ _ _ a

/-- The first column of a tile, at row a, is the tile at (a, 0). -/
theorem firstCol (x : FVec Ideal S16128x5 .f32) (a : Fin 16128) :
    extractStridedSlice S16128x1 ![0, 0] x slices_S16128x5_o0_0_S16128x1 (ix2 a (0 : Fin 1)) = x (ix2 a (0 : Fin 5)) :=
  extractStridedSlice_apply ![0, 0] x _ _ _ (fun d => match d with
    | ⟨0, _⟩ => by show a.val = 0 + a.val; omega
    | ⟨1, _⟩ => by show 0 = 0 + 0; rfl)

/-- A column spread over the five features reads, at (a, f), the column at row a. -/
theorem spread (w : FVec Ideal S16128x1 .f32) (a : Fin 16128) (f : Fin 5) :
    broadcastTo S16128x5 w broadcasts_S16128x1_S16128x5 (ix2 a f) = w (ix2 a (0 : Fin 1)) :=
  broadcastTo_apply w _ _ _ (fun d => match d with
    | ⟨0, _⟩ => by show a.val = if (16128 : Nat) = 1 then 0 else a.val; rw [if_neg (by decide)]
    | ⟨1, _⟩ => by show 0 = if (1 : Nat) = 1 then 0 else f.val; rw [if_pos rfl])

/-- The weight as the kernel spells it — the comparison's bit widened to 32 bits and read as a signed integer — is the
    row's weight. -/
theorem weight_kernel (v : EReal) :
    (FloatOps.sitofp (F := Ideal) .f32 ((FloatOps.cmpf (F := Ideal) (φ := .f32) .ogt v (Ideal.ofBits .f32 0x3F000000#32)).setWidth 32) : EReal)
      = weight v := by
  show ((((Ideal.cmp .ogt v thr).setWidth 32).toInt : ℝ) : EReal) = _
  unfold weight Ideal.cmp
  by_cases h : thr < v
  · simp [h]
  · simp [h]

/-- THE STEP. The value the kernel stores back into its accumulator, at its one entry: the accumulator plus the block
    term of the tile's rows. -/
theorem pay3_eq (x y : Vec Ideal S16128x5 .f32) (acc : Vec Ideal S1x1 .f32) (i : S1x1.Idx) :
    k0_pay3 (F := Ideal) x y acc i = acc i + blockTerm (fun r f => x (ix2 r f)) (fun r f => y (ix2 r f)) := by
  unfold k0_pay3
  dsimp only
  simp only [shapeCast_self]
  unfold blockTerm sqErr conf confSel
  simp only [addf_apply, subf_apply, mulf_apply, broadcast_apply, Ideal.ofBits_def]
  rw [colsum, colsum, colsum]
  refine congrArg (acc i + ·) ?_
  refine congrArg₂ (· - ·) (congrArg₂ (· + ·) (Finset.sum_congr rfl fun a _ => ?_)
    (congrArg (alpha * ·) (Finset.sum_congr rfl fun a _ => ?_))) (congrArg (alpha * ·) (Finset.sum_congr rfl fun a _ => ?_))
  · rw [rowsum]
    refine Finset.sum_congr rfl fun f _ => ?_
    rw [mulf_apply, mulf_apply, subf_apply, spread, sitofp_apply, extui_apply, cmpf_apply, firstCol, broadcast_apply]
    exact congrArg _ (weight_kernel _)
  · rw [mulf_apply, firstCol]
  · rw [mulf_apply, mulf_apply, firstCol, sitofp_apply, extui_apply, cmpf_apply, firstCol, broadcast_apply]
    exact congrArg _ (weight_kernel _)

/-- The value stored at a core's first step, before the tile is added: zero. -/
theorem pay2_eq (i : S1x1.Idx) : k0_pay2 (F := Ideal) i = 0 := by
  unfold k0_pay2
  simp only [shapeCast_self, broadcast_apply]
  exact Ideal.ofBits_zero_f32

/-- The accumulator recast as the [1, 1, 1] output block reads, at its one entry, the accumulator's one entry. -/
theorem pay1_eq (v : Vec Ideal S1x1 .f32) (j : S1x1x1.Idx) (i : S1x1.Idx) : k0_pay1 (F := Ideal) v j = v i := by
  unfold k0_pay1
  refine shapeCast_apply v shapeCasts_S1x1_S1x1x1 j i ?_
  have h1 : (S1x1.rowMajor i).val < 1 := (S1x1.rowMajor i).isLt
  have h2 : (S1x1x1.rowMajor j).val < 1 := (S1x1x1.rowMajor j).isLt
  omega

end Cert.KernelIdeal.Step

end
-- ==== Proof.LossPieces.lean ====
/-
  What one run of the kernel's body leaves behind, case by case, at any float instance.

  The body keeps a [1, 1] accumulator in a scratch buffer that survives from one grid point to the next. At the first
  step of a core's sweep it stores zero there, reads it back and stores the step's value over it; at every later step it
  stores the step's value over what the step before left; at the last step it also copies the accumulator into the
  [1, 1, 1] output block. Each buffer's final contents are the last covering store's payload, whose loads read whole
  buffers, so they are the payload of the buffers' contents.
-/
import proofs.«130284_j60782377173145_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle step leaves, in the accumulator that held acc, the step's value of the two tiles and acc. -/
theorem scratch_B (c : Dev nD) (i : grid0.Coords) (a2 : Memref sig .tc .vmem S16128x5 .f32) (h2 : a2.IsWhole)
    (a3 : Memref sig .tc .vmem S16128x5 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : ¬cond0_1 i)
    (x0 x1 : Vec F S16128x5 .f32) (xs0 : Vec F S1x1 .f32) :
    sout0_B_0 c i a2 h2 a3 h3 a4 h4 a5 h5 hc0 hc1 x0 x1 xs0 = k0_pay3 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz2]
  simp only [View.readAt_eq_ld, h2.read_unread, h3.read_unread, h5.read_unread, View.ld_unit_zero (S := S16128x5) hz2,
    View.ld_unit_zero (S := S1x1) hz2]

/-- The last step leaves the same in the accumulator, -/
theorem scratch_C (c : Dev nD) (i : grid0.Coords) (a2 : Memref sig .tc .vmem S16128x5 .f32) (h2 : a2.IsWhole)
    (a3 : Memref sig .tc .vmem S16128x5 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : cond0_1 i)
    (x0 x1 : Vec F S16128x5 .f32) (xs0 : Vec F S1x1 .f32) :
    sout0_C_0 c i a2 h2 a3 h3 a4 h4 a5 h5 hc0 hc1 x0 x1 xs0 = k0_pay3 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread, View.ld_unit_zero (S := S16128x5) hz2,
    View.ld_unit_zero (S := S1x1) hz2]

/-- and its recast in the output block. -/
theorem out_C (c : Dev nD) (i : grid0.Coords) (a2 : Memref sig .tc .vmem S16128x5 .f32) (h2 : a2.IsWhole)
    (a3 : Memref sig .tc .vmem S16128x5 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : cond0_1 i)
    (x0 x1 : Vec F S16128x5 .f32) (xs0 : Vec F S1x1 .f32) :
    out0_C_2 c i a2 h2 a3 h3 a4 h4 a5 h5 hc0 hc1 x0 x1 xs0 = k0_pay1 (k0_pay3 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3, View.readCov_unit_zero (S := S1x1) _ hz2]
  simp only [View.readAt_eq_ld, h2.read_unread, h3.read_unread, h5.read_unread, View.ld_unit_zero (S := S16128x5) hz2,
    View.ld_unit_zero (S := S1x1) hz2]

/-- The first step leaves the step's value of the two tiles and the zero it has just stored. -/
theorem scratch_A (c : Dev nD) (i : grid0.Coords) (a2 : Memref sig .tc .vmem S16128x5 .f32) (h2 : a2.IsWhole)
    (a3 : Memref sig .tc .vmem S16128x5 .f32) (h3 : a3.IsWhole) (a4 : Memref sig .tc .vmem S1x1x1 .f32) (h4 : a4.IsWhole)
    (a5 : Memref sig .tc .vmem S1x1 .f32) (h5 : a5.IsWhole) (hc0 : cond0_0 i) (hc1 : ¬cond0_1 i)
    (x0 x1 : Vec F S16128x5 .f32) :
    sout0_A_0 c i a2 h2 a3 h3 a4 h4 a5 h5 hc0 hc1 x0 x1 = k0_pay3 x0 x1 (k0_pay2 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz2, View.readCov_unit_zero (S := S1x1) _ hz2]
  simp only [View.readAt_eq_ld, h2.read_unread, h3.read_unread, View.ld_unit_zero (S := S16128x5) hz2]

end Cert.KernelIdeal.Pieces

end
-- ==== Proof.LossChain.lean ====
/-
  The accumulator along a core's sweep of the grid.

  The grid is 2 × 169: position n = 169 · q + s is step s of sweep q. At step 0 of a sweep the accumulator is reset and
  the step's block term is added; at every later step the step's block term is added to what the step before left. So
  after position n the accumulator holds the sum of the block terms of the positions n − n mod 169, …, n of the same
  sweep (by induction on the position), and at the last step of a sweep, where the kernel copies the accumulator into
  the output block, the block holds the sum of the sweep's 169 block terms.
-/
import proofs.«130284_j60782377173145_1_alg».proof.Proof.LossStep
import proofs.«130284_j60782377173145_1_alg».proof.Proof.LossPieces

open scoped BigOperators

noncomputable section

open Idealize.ShloMosaic Idealize.ShloMosaic.TcCoe Idealize.SL.Sem Idealize.ShloMosaic.ValueIdx

namespace Cert.KernelIdeal.Chain

open Cert.KernelIdeal Cert.KernelIdeal.Gen Cert.Loss

variable (m : (ℓ : Loc nD τ sig) → Buf (Elt Ideal) ℓ)

/-- The tiles of predictions and of labels the body finds at a grid position, as [16128, 5] vectors. -/
abbrev xTile (c : Dev nD) (t : Fin cfg0.N) : Vec Ideal S16128x5 .f32 := iblk m c 0 t
abbrev yTile (c : Dev nD) (t : Fin cfg0.N) : Vec Ideal S16128x5 .f32 := iblk m c 1 t

/-- The block term of grid position p (zero past the grid). -/
def term (c : Dev nD) (p : ℕ) : EReal :=
  if h : p < cfg0.N then blockTerm (fun r f => xTile m c ⟨p, h⟩ (ix2 r f)) (fun r f => yTile m c ⟨p, h⟩ (ix2 r f)) else 0

theorem term_of_lt (c : Dev nD) (p : ℕ) (h : p < cfg0.N) :
    term m c p = blockTerm (fun r f => xTile m c ⟨p, h⟩ (ix2 r f)) (fun r f => yTile m c ⟨p, h⟩ (ix2 r f)) := dif_pos h

/-- Step 0 of a sweep leaves the position's block term in the accumulator: the zero just stored plus the term. -/
theorem first_step (c : Dev nD) (n : ℕ) (hn : n < cfg0.N) (h0 : n % 169 = 0) (i : S1x1.Idx) :
    (outsAt0 (F := Ideal) m c n hn).2 i = term m c n := by
  have hN : n < 338 := lt_of_lt_of_eq hn (show cfg0.N = 338 from N_0)
  have h1 : ¬ n % 169 = 168 := by omega
  have e := congrArg (fun p => p.2 i) (outsAt0_A m c ⟨n, hn⟩ h0 h1)
  dsimp only at e
  refine e.trans ?_
  refine (congrFun (Pieces.scratch_A c _ _ _ _ _ _ _ _ _ _ _ (xTile m c ⟨n, hn⟩) (yTile m c ⟨n, hn⟩)) i).trans ?_
  refine (Step.pay3_eq (xTile m c ⟨n, hn⟩) (yTile m c ⟨n, hn⟩) (k0_pay2 (F := Ideal)) i).trans ?_
  rw [Step.pay2_eq, zero_add, term_of_lt m c n hn]

/-- A later step adds the position's block term to what the position before left. -/
theorem later_step (c : Dev nD) (n : ℕ) (hn : n + 1 < cfg0.N) (h0 : ¬ (n + 1) % 169 = 0) (i : S1x1.Idx) :
    (outsAt0 (F := Ideal) m c (n + 1) hn).2 i
      = (outsAt0 (F := Ideal) m c n (Nat.lt_of_succ_lt hn)).2 i + term m c (n + 1) := by
  rw [term_of_lt m c (n + 1) hn]
  by_cases h1 : (n + 1) % 169 = 168
  · have e := congrArg (fun p => p.2 i) (outsAt0_C m c ⟨n + 1, hn⟩ h0 h1)
    dsimp only at e
    refine e.trans ?_
    refine (congrFun (Pieces.scratch_C c _ _ _ _ _ _ _ _ _ _ _ (xTile m c ⟨n + 1, hn⟩) (yTile m c ⟨n + 1, hn⟩) _) i).trans ?_
    exact Step.pay3_eq (xTile m c ⟨n + 1, hn⟩) (yTile m c ⟨n + 1, hn⟩) _ i
  · have e := congrArg (fun p => p.2 i) (outsAt0_B m c ⟨n + 1, hn⟩ h0 h1)
    dsimp only at e
    refine e.trans ?_
    refine (congrFun (Pieces.scratch_B c _ _ _ _ _ _ _ _ _ _ _ (xTile m c ⟨n + 1, hn⟩) (yTile m c ⟨n + 1, hn⟩) _) i).trans ?_
    exact Step.pay3_eq (xTile m c ⟨n + 1, hn⟩) (yTile m c ⟨n + 1, hn⟩) _ i

/-- THE RUNNING SUM. After position n the accumulator holds the block terms of its sweep up to n, added up. -/
theorem scratch_eq (c : Dev nD) : ∀ (n : ℕ) (hn : n < cfg0.N) (i : S1x1.Idx),
    (outsAt0 (F := Ideal) m c n hn).2 i = ∑ k ∈ Finset.range (n % 169 + 1), term m c (n - n % 169 + k) := by
  intro n
  induction n with
  | zero => intro hn i; rw [first_step m c 0 hn rfl i]; simp
  | succ n ih =>
    intro hn i
    by_cases h0 : (n + 1) % 169 = 0
    · rw [first_step m c (n + 1) hn h0 i, h0]; simp
    · rw [later_step m c n hn h0 i, ih (Nat.lt_of_succ_lt hn) i]
      have e1 : (n + 1) % 169 = n % 169 + 1 := by omega
      have e2 : n + 1 - (n % 169 + 1) = n - n % 169 := by omega
      rw [e1, e2, Finset.sum_range_succ _ (n % 169 + 1)]
      refine congrArg _ (congrArg _ ?_)
      omega

/-- At the last step of a sweep the output block's one entry is the accumulator's. -/
theorem out_last (c : Dev nD) (n : ℕ) (hn : n < cfg0.N) (h1 : n % 169 = 168) (j : S1x1x1.Idx) (i : S1x1.Idx) :
    (outsAt0 (F := Ideal) m c n hn).1 j = (outsAt0 (F := Ideal) m c n hn).2 i := by
  have h0 : ¬ n % 169 = 0 := by omega
  have e1 := congrArg (fun p => p.1 j) (outsAt0_C m c ⟨n, hn⟩ h0 h1)
  have e2 := congrArg (fun p => p.2 i) (outsAt0_C m c ⟨n, hn⟩ h0 h1)
  dsimp only at e1 e2
  refine e1.trans (Eq.trans ?_ e2.symm)
  refine (congrFun (Pieces.out_C c _ _ _ _ _ _ _ _ _ _ _ (xTile m c ⟨n, hn⟩) (yTile m c ⟨n, hn⟩) _) j).trans ?_
  refine (Step.pay1_eq _ j i).trans ?_
  exact (congrFun (Pieces.scratch_C c _ _ _ _ _ _ _ _ _ _ _ (xTile m c ⟨n, hn⟩) (yTile m c ⟨n, hn⟩) _) i).symm

/-- So after the last step of a sweep — a position n with n mod 169 = 168 — the output block holds the sum of the sweep's
    169 block terms, those of the positions n − 168, …, n. -/
theorem out_sweep (c : Dev nD) (n : ℕ) (hn : n < cfg0.N) (h1 : n % 169 = 168) (j : S1x1x1.Idx) :
    (outsAt0 (F := Ideal) m c n hn).1 j = ∑ k ∈ Finset.range 169, term m c (n - 168 + k) := by
  rw [out_last m c n hn h1 j (ix2 0 0), scratch_eq m c n hn, h1]

end Cert.KernelIdeal.Chain

end
-- ==== Proof.LossRows.lean ====
/-
  The [512, 10647, 5] arrays as 5451264 rows of five features.

  Row ρ of the flattened array is cell (ρ / 10647, ρ mod 10647) of the grid of cells; summing over the cells (i, j) is
  summing over the rows. So the loss of the rows is the same expression written over the three coordinates.
-/
import proofs.«130284_j60782377173145_1_alg».proof.Proof.LossSpec

open scoped BigOperators

noncomputable section

namespace Cert.Loss

open Idealize.ShloMosaic Idealize.ShloMosaic.ValueIdx

/-- The cell of a row. -/
abbrev cellI (ρ : Fin 5451264) : Fin 512 := ⟨ρ.val / 10647, by have := ρ.isLt; omega⟩
abbrev cellJ (ρ : Fin 5451264) : Fin 10647 := ⟨ρ.val % 10647, Nat.mod_lt _ (by decide)⟩

/-- Row ρ, feature f of a [512, 10647, 5] array. -/
def rows (x : (⟨3, ![512, 10647, 5]⟩ : Shape).Idx → EReal) : Fin 5451264 → Fin 5 → EReal :=
  fun ρ f => x (ix3 (cellI ρ) (cellJ ρ) f)

/-- A sum over the cells is the sum over the rows. -/
theorem sum_cells {M : Type*} [AddCommMonoid M] (g : Fin 512 → Fin 10647 → M) :
    ∑ i, ∑ j, g i j = ∑ ρ : Fin 5451264, g (cellI ρ) (cellJ ρ) := by
  rw [LibBlockSum.sum_blocks 512 10647 (fun ρ : Fin 5451264 => g (cellI ρ) (cellJ ρ))]
  refine Finset.sum_congr rfl fun i _ => Finset.sum_congr rfl fun j _ => ?_
  have hj := j.isLt
  congr 1 <;> (apply Fin.ext; dsimp only; omega)

/-- The loss written over the three coordinates. -/
def loss3 (x y : (⟨3, ![512, 10647, 5]⟩ : Shape).Idx → EReal) : EReal :=
  (∑ a : Fin 512, ∑ b : Fin 10647, ∑ f : Fin 5,
      (y (ix3 a b f) - x (ix3 a b f)) * (y (ix3 a b f) - x (ix3 a b f)) * weight (y (ix3 a b (0 : Fin 5)))
    + alpha * ∑ a : Fin 512, ∑ b : Fin 10647, x (ix3 a b (0 : Fin 5)) * x (ix3 a b (0 : Fin 5)))
  - alpha * ∑ a : Fin 512, ∑ b : Fin 10647, x (ix3 a b (0 : Fin 5)) * x (ix3 a b (0 : Fin 5)) * weight (y (ix3 a b (0 : Fin 5)))

theorem loss_rows (x y : (⟨3, ![512, 10647, 5]⟩ : Shape).Idx → EReal) : loss (rows x) (rows y) = loss3 x y := by
  unfold loss3
  rw [sum_cells (fun a b => ∑ f : Fin 5,
      (y (ix3 a b f) - x (ix3 a b f)) * (y (ix3 a b f) - x (ix3 a b f)) * weight (y (ix3 a b (0 : Fin 5)))),
    sum_cells (fun a b => x (ix3 a b (0 : Fin 5)) * x (ix3 a b (0 : Fin 5))),
    sum_cells (fun a b => x (ix3 a b (0 : Fin 5)) * x (ix3 a b (0 : Fin 5)) * weight (y (ix3 a b (0 : Fin 5))))]
  rfl

/-- Rows of real entries are real. -/
theorem rows_real {x : (⟨3, ![512, 10647, 5]⟩ : Shape).Idx → EReal} (hx : ∀ j, LibSoftmaxMean.IsReal (x j)) (ρ : Fin 5451264) (f : Fin 5) :
    LibSoftmaxMean.IsReal (rows x ρ f) := hx _

end Cert.Loss

end
-- ==== Proof.LossTiles.lean ====
/-
  The tiles the body sees are blocks of rows of the two argument arrays.

  Before the kernel is launched the host recasts each [512, 10647, 5] argument as [5451264, 5]; entry (ρ, f) of the
  recast array is row ρ, feature f of the argument. The kernel's window at grid position t is rows 16128 · t, …,
  16128 · t + 16127 of that array. So the block term of position p is the block term of block p of the rows.
-/
import proofs.«130284_j60782377173145_1_alg».proof.Proof.LossChain
import proofs.«130284_j60782377173145_1_alg».proof.Proof.LossRows
import Idealize.ShloMosaic.Lib.StableHlo.Run

open scoped BigOperators

noncomputable section

open Idealize.ShloMosaic Idealize.ShloMosaic.TcCoe Idealize.SL.Sem Idealize.ShloMosaic.ValueIdx

namespace Cert.KernelIdeal.Tiles

open Cert.KernelIdeal Cert.KernelIdeal.Gen Cert.Loss Cert.KernelIdeal.Chain

variable (m : (ℓ : Loc nD τ sig) → Buf (Elt Ideal) ℓ)

/-- At grid position t both input windows sit at block t of the rows. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)

/-- The arrays the kernel's windows read are the host's recasts of the two arguments. -/
theorem V_v0 (c : Dev nD) : (V m c main_v0 : FVec Ideal S5451264x5 .f32)
    = shapeCast S5451264x5 (m ((c : Thread nD τ).loc main_arg0)) shapeCasts_S512x10647x5_S5451264x5 := by
  show StableHlo.after hostOps0 (fun b => m (c, b)) (Proc.devRef .tc main_v0) = _
  after_results
  rfl
theorem V_v1 (c : Dev nD) : (V m c main_v1 : FVec Ideal S5451264x5 .f32)
    = shapeCast S5451264x5 (m ((c : Thread nD τ).loc main_arg1)) shapeCasts_S512x10647x5_S5451264x5 := by
  show StableHlo.after hostOps0 (fun b => m (c, b)) (Proc.devRef .tc main_v1) = _
  after_results
  rfl

/-- Entry (ρ, f) of the recast array is row ρ, feature f. -/
theorem flat_apply (x : FVec Ideal S512x10647x5 .f32) (ρ : Fin 5451264) (f : Fin 5) :
    shapeCast S5451264x5 x shapeCasts_S512x10647x5_S5451264x5 (ix2 ρ f) = rows x ρ f := by
  refine shapeCast_apply x _ _ _ ?_
  rw [Shape.rowMajor_val_three, Shape.rowMajor_val_two]
  show ((ρ.val / 10647) * 10647 + ρ.val % 10647) * 5 + f.val = ρ.val * 5 + f.val
  omega

/-- Entry (r, f) of the tile at position t is entry (16128 · t + r, f) of the recast array. -/
theorem xTile_apply (c : Dev nD) (t : Fin cfg0.N) (r : Fin 16128) (f : Fin 5) (ρ : Fin 5451264)
    (hρ : ρ.val = 16128 * t.val + r.val) : xTile m c t (ix2 r f) = (V m c main_v0 : FVec Ideal S5451264x5 .f32) (ix2 ρ f) := by
  show ((cfg0.win 0).blk t).view.read (Elt Ideal) (V m c (Pipeline.arrRef spec0 0)) (ix2 r f) = _
  rw [View.read_apply]
  show V m c main_v0 _ = V m c main_v0 _
  refine congrArg _ (funext fun a => Fin.ext ?_)
  match a with
  | ⟨0, _⟩ => show win0_0.index t 0 * 16128 + 1 * r.val = ρ.val; rw [(idx0 t).1, hρ]; omega
  | ⟨1, _⟩ => show win0_0.index t 1 * 5 + 1 * f.val = f.val; rw [(idx0 t).2]; omega
theorem yTile_apply (c : Dev nD) (t : Fin cfg0.N) (r : Fin 16128) (f : Fin 5) (ρ : Fin 5451264)
    (hρ : ρ.val = 16128 * t.val + r.val) : yTile m c t (ix2 r f) = (V m c main_v1 : FVec Ideal S5451264x5 .f32) (ix2 ρ f) := by
  show ((cfg0.win 1).blk t).view.read (Elt Ideal) (V m c (Pipeline.arrRef spec0 1)) (ix2 r f) = _
  rw [View.read_apply]
  show V m c main_v1 _ = V m c main_v1 _
  refine congrArg _ (funext fun a => Fin.ext ?_)
  match a with
  | ⟨0, _⟩ => show win0_1.index t 0 * 16128 + 1 * r.val = ρ.val; rw [(idx1 t).1, hρ]; omega
  | ⟨1, _⟩ => show win0_1.index t 1 * 5 + 1 * f.val = f.val; rw [(idx1 t).2]; omega

/-- THE BLOCKS. The block term of grid position p is the block term of rows 16128 · p, …, 16128 · p + 16127 of the two
    arguments. -/
theorem term_eq (c : Dev nD) (p : Fin 338) :
    term m c p.val = blockTerm (fun r => rows (m ((c : Thread nD τ).loc main_arg0)) (rowOf 338 16128 p r))
                               (fun r => rows (m ((c : Thread nD τ).loc main_arg1)) (rowOf 338 16128 p r)) := by
  have hp : p.val < cfg0.N := lt_of_lt_of_eq p.isLt (show cfg0.N = 338 from N_0).symm
  rw [term_of_lt m c p.val hp]
  refine congrArg₂ (blockTerm (R := 16128)) (funext fun r => funext fun f => ?_) (funext fun r => funext fun f => ?_)
  · exact (xTile_apply m c ⟨p.val, hp⟩ r f (rowOf 338 16128 p r) rfl).trans
      ((congrFun (V_v0 m c) _).trans (flat_apply _ _ _))
  · exact (yTile_apply m c ⟨p.val, hp⟩ r f (rowOf 338 16128 p r) rfl).trans
      ((congrFun (V_v1 m c) _).trans (flat_apply _ _ _))

end Cert.KernelIdeal.Tiles

end
-- ==== Proof.LossFinal.lean ====
/-
  From the output blocks to the kernel's result.

  The kernel's result array is [2, 1, 1]: block q is written back once, after the last step of sweep q, with the
  accumulator, so entry (q, 0, 0) ends holding the sum of sweep q's 169 block terms. The host then adds up the array's
  two entries, starting from zero. The 338 block terms are those of the 338 blocks of 16128 rows, so — the entries being
  real numbers — the total is the loss of all the rows.
-/
import proofs.«130284_j60782377173145_1_alg».proof.Proof.LossTiles
import proofs.«130284_j60782377173145_1_alg».proof.Proof.LibLossSums
import Idealize.ShloMosaic.Lib.StableHlo.Run

open scoped BigOperators

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Loss Cert.KernelIdeal.Chain Cert.KernelIdeal.Tiles

variable (m : (ℓ : Loc nD τ sig) → Buf (Elt Ideal) ℓ) (ρ : Dev nD → PrngReg)

/-- At grid position t the output window sits at block t / 169: the sweep's. -/
theorem idx2 : ∀ t : Fin cfg0.N, win0_2.index t 0 = t.val / 169 ∧ win0_2.index t 1 = 0 ∧ win0_2.index t 2 = 0 :=
  (by decide +kernel : ∀ t : Fin grid0.N, win0_2.index t 0 = t.val / 169 ∧ win0_2.index t 1 = 0 ∧ win0_2.index t 2 = 0)

/-- The [2, 1, 1] result of the kernel: entry (q, 0, 0) is the sum of sweep q's 169 block terms. -/
def Gv (c : Dev nD) : FVec Ideal S2x1x1 .f32 :=
  fun j => ∑ k ∈ Finset.range 169, term m c (169 * (j 0).val + k)
abbrev G (c : Dev nD) : Buf (Elt Ideal) ((c : Thread nD τ).loc main_v2) := Gv m c

/-- The one write-back of sweep q, after its last step, writes entry q of that array. -/
theorem flushed_eq (c : Dev nD) (t : Fin cfg0.N) (hf : (cfg0.win 2).flush t = true) :
    (dats m 0 c).flushed 2 t = ((cfg0.win 2).blk t).view.read (Elt Ideal) (G m c) := by
  have h168 : t.val % 169 = 168 := (flush0_2 t).mp hf
  have hN : t.val < 338 := lt_of_lt_of_eq t.isLt (show cfg0.N = 338 from N_0)
  funext y
  rw [View.read_apply]
  show ((dats m 0 c).after 2 t) ((cfg0.win 2).xinj (grid0.coords t) y) = _
  rw [after0_2, out_sweep m c t.val t.isLt h168]
  show _ = Gv m c (((cfg0.win 2).blk t).view.emb y)
  unfold Gv
  refine Finset.sum_congr rfl fun k _ => congrArg _ ?_
  show t.val - 168 + k = 169 * (win0_2.index t 0 * 1 + 1 * (y 0).val) + k
  have hy : (y 0).val < 1 := (y 0).isLt
  rw [(idx2 t).1]
  omega

/-- The two blocks cover the array, so it ends holding the two sweeps' sums. -/
theorem final (c : Dev nD) : (dats m 0 c).arrAt 2 cfg0.N = G m c :=
  (dats m 0 c).arrAt_eq_of_cover 2 (G m c) (flushed_eq m c) fun i => by
    have hi : (i 0 : Nat) < 2 := (i 0).isLt
    have hT : 169 * (i 0 : Nat) + 168 < cfg0.N := by rw [show cfg0.N = 338 from N_0]; omega
    refine ⟨⟨169 * (i 0 : Nat) + 168, hT⟩, (flush0_2 _).mpr (by dsimp only; omega), ?_⟩
    show i ∈ ((View.whole main_v2).slice (win0_2.rect ⟨169 * (i 0 : Nat) + 168, hT⟩)).set
    rw [View.set_slice_whole, Rect.mem_set_unit]
    intro a
    match a with
    | ⟨0, _⟩ =>
      show win0_2.index ⟨169 * (i 0 : Nat) + 168, hT⟩ 0 * 1 ≤ (i 0 : Nat)
        ∧ (i 0 : Nat) < win0_2.index ⟨169 * (i 0 : Nat) + 168, hT⟩ 0 * 1 + 1
      rw [(idx2 _).1]; dsimp only; omega
    | ⟨1, _⟩ =>
      have h1 : (i 1 : Nat) < 1 := (i 1).isLt
      show win0_2.index ⟨169 * (i 0 : Nat) + 168, hT⟩ 1 * 1 ≤ (i 1 : Nat)
        ∧ (i 1 : Nat) < win0_2.index ⟨169 * (i 0 : Nat) + 168, hT⟩ 1 * 1 + 1
      rw [(idx2 _).2.1]; omega
    | ⟨2, _⟩ =>
      have h2 : (i 2 : Nat) < 1 := (i 2).isLt
      show win0_2.index ⟨169 * (i 0 : Nat) + 168, hT⟩ 2 * 1 ≤ (i 2 : Nat)
        ∧ (i 2 : Nat) < win0_2.index ⟨169 * (i 0 : Nat) + 168, hT⟩ 2 * 1 + 1
      rw [(idx2 _).2.2]; omega

/-- The host's sum of the result array: zero plus the array's entries. -/
theorem tail_eq (c : Dev nD) (i : S_.Idx) :
    (Pipeline.afterTail₀ cfgs (dats m) 0 (V0 m) [hostOps1] c main_v3 : FVec Ideal S_ .f32) i
      = Ideal.ofBits .f32 0x00000000#32 + ∑ j : S2x1x1.Idx, Gv m c j := by
  unfold Pipeline.afterTail₀
  show StableHlo.after hostOps1 _ (Proc.devRef .tc main_v3) i = _
  after_results
  have hA : (Pipeline.withArrays (cfgs 0).spec c (V0 m c) (fun w => (dats m 0 c).arrAt w (cfgs 0).N) (Proc.devRef .tc main_v2)
      : FVec Ideal S2x1x1 .f32) = Gv m c :=
    (Pipeline.withArrays_arr spec0 launch0.win.arr_inj c _ _ 2).trans (final m c)
  refine (congrArg (fun A : FVec Ideal S2x1x1 .f32 =>
    Host.reduceAdd (F := Ideal) A (constant S_ .f32 0x00000000#32) reducesTo_S2x1x1_S_d0_1_2 h_S_ i) hA).trans ?_
  simp only [Host.reduceAdd, Ideal.hostReduceAdd_def]
  exact Ideal.hostReduceAdd_total reducesTo_S2x1x1_S_d0_1_2 (fun b => b.elim0) (Gv m c) _ i

/-- THE TOTAL. With real entries, zero plus the two sweeps' sums is the loss of the 5451264 rows of the two arguments:
    the 2 × 169 block terms are those of the 338 blocks of 16128 rows. -/
theorem total (c : Dev nD)
    (hx : ∀ j, LibSoftmaxMean.IsReal ((m ((c : Thread nD τ).loc main_arg0) : FVec Ideal S512x10647x5 .f32) j))
    (hy : ∀ j, LibSoftmaxMean.IsReal ((m ((c : Thread nD τ).loc main_arg1) : FVec Ideal S512x10647x5 .f32) j)) :
    Ideal.ofBits .f32 0x00000000#32 + ∑ j : S2x1x1.Idx, Gv m c j
      = loss (rows (m ((c : Thread nD τ).loc main_arg0))) (rows (m ((c : Thread nD τ).loc main_arg1))) := by
  rw [Ideal.ofBits_zero_f32, zero_add, Cert.LibLossSums.sum_idx3]
  rw [← sum_blockTerm 338 16128 (rows (m ((c : Thread nD τ).loc main_arg0))) (rows (m ((c : Thread nD τ).loc main_arg1)))
    (fun ρ f => rows_real hx ρ f) (fun ρ f => rows_real hy ρ f)]
  rw [LibBlockSum.sum_blocks 2 169 (fun p : Fin 338 =>
    blockTerm (fun r => rows (m ((c : Thread nD τ).loc main_arg0)) (rowOf 338 16128 p r))
      (fun r => rows (m ((c : Thread nD τ).loc main_arg1)) (rowOf 338 16128 p r)))]
  refine Finset.sum_congr rfl fun a _ => ?_
  rw [Fin.sum_univ_one, Fin.sum_univ_one]
  show ∑ k ∈ Finset.range 169, term m c (169 * a.val + k) = _
  rw [Finset.sum_range]
  refine Finset.sum_congr rfl fun s _ => ?_
  exact term_eq m c ⟨169 * a.val + s.val, by have := a.isLt; have := s.isLt; omega⟩

end Cert.KernelIdeal.Final

end
-- ==== Proof.LossFinite.lean ====
/-
  The precondition: every entry of both arguments is a real number.

  The precondition compares the absolute value of every entry of each argument with +∞ and takes the conjunction of all
  the comparisons. An extended real whose absolute value max(x, −x) is below +∞ is neither +∞ nor −∞, so it is a real
  number.
-/
import proofs.«130284_j60782377173145_1_alg».proof.Defs
import proofs.«130284_j60782377173145_1_alg».proof.Proof.Gen.Pre_finite_inputs
import proofs.«130284_j60782377173145_1_alg».proof.Proof.LibSoftmaxMean
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Cert.LibSoftmaxMean

instance : Subsingleton Cert.Pre_finite_inputs.S_.Idx := ⟨fun a b => funext fun d => d.elim0⟩

/-- An extended real whose absolute value compares below the word of +∞ is a real number. -/
theorem real_of_bit (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  refine IsReal.of_ne ?_ ?_
  · rintro rfl; simp at hlt
  · rintro rfl; simp at hlt

/-- Under the precondition every entry of both arguments is a real number. -/
theorem entries_real [hP : Cert.Pre_finite_inputs.Facts] (x0 x1 : FVec Ideal Cert.Pre_finite_inputs.S512x10647x5 .f32)
    (h : Cert.Pre_finite_inputs.fn (F := Ideal) x0 x1 = fun _ => 1#1) :
    (∀ j, IsReal (x0 j)) ∧ (∀ j, IsReal (x1 j)) := by
  have h0 := congrFun h ValueIdx.ix0
  dsimp only [Cert.Pre_finite_inputs.fn] at h0
  have h1 := IntOp.andi_eq_one.mp h0
  refine ⟨fun j => real_of_bit _ ?_, fun j => real_of_bit _ ?_⟩
  · exact Host.reduce_andi_all _ _ _ _ _ h1.1 j
  · exact Host.reduce_andi_all _ _ _ _ _ h1.2 j

end Cert.Finite

end
-- ==== Proof.Reference.lean ====
/-
  The reference on the extended reals.

  The reference selects the cells (a, b) whose label has first feature above the threshold, sums the weighted squared
  errors over all cells and features, sums the squared predicted confidences over all cells and over the selected
  cells, and returns (D + α · B) − α · C. Each of its three sums runs over the whole index set of its operand and starts
  from zero; written over the coordinates this is the loss of the 5451264 rows.
-/
import proofs.«130284_j60782377173145_1_alg».proof.Defs
import proofs.«130284_j60782377173145_1_alg».proof.Proof.Gen.ReferenceIdeal.Read
import proofs.«130284_j60782377173145_1_alg».proof.Proof.LossRows
import proofs.«130284_j60782377173145_1_alg».proof.Proof.LibLossSums
import Idealize.ShloMosaic.Lib.ValueIdx
import Idealize.ShloMosaic.Lib.Pipeline.Value
import Idealize.ShloMosaic.PureOps.Ideal.Laws

open scoped BigOperators

noncomputable section

namespace Cert.ReferenceIdeal.RefValue

open Idealize.ShloMosaic Idealize.ShloMosaic.ValueIdx Cert.ReferenceIdeal Cert.ReferenceIdeal.Read Cert.Loss

/-- The weight as the reference spells it — the comparison's bit read as an unsigned integer — is the row's weight. -/
theorem weight_ref (v : EReal) :
    (FloatOps.uitofp (F := Ideal) .f32 (FloatOps.cmpf (F := Ideal) (φ := .f32) .ogt v (FloatOps.ofBits .f32 0x3F000000#32)) : EReal)
      = weight v := by
  show ((((Ideal.cmp .ogt v thr)).toNat : ℝ) : EReal) = _
  unfold weight Ideal.cmp
  by_cases h : thr < v
  · simp [h]
  · simp [h]

/-- The selection mask at cell (a, b) is the weight of the label's first feature there. -/
theorem mask_at (x1 : FVec Ideal S512x10647x5 .f32) (a : Fin 512) (b : Fin 10647) :
    val_main_v4 (F := Ideal) x1 (ix2 a b) = weight (x1 (ix3 a b (0 : Fin 5))) := by
  have e : idx_main_v0 (idx_main_v1 (ix2 a b)) = ix3 a b (0 : Fin 5) := funext fun d => Fin.ext (by
    have ha := a.isLt; have hb := b.isLt
    match d with
    | ⟨0, _⟩ => show (a.val * 10647 + b.val) / 10647 = a.val; omega
    | ⟨1, _⟩ => show (a.val * 10647 + b.val) / 1 % 10647 = b.val; omega
    | ⟨2, _⟩ => rfl)
  rw [val_main_v4_apply, val_main_v3_apply, val_main_v1_apply, val_main_v0_apply, val_main_v2_apply, val_main_cst_apply, e]
  exact weight_ref _

/-- The weighted squared error at (a, b, f). -/
theorem sq_at (x0 x1 : FVec Ideal S512x10647x5 .f32) (a : Fin 512) (b : Fin 10647) (f : Fin 5) :
    val_main_v9 (F := Ideal) x0 x1 (ix3 a b f)
      = (x1 (ix3 a b f) - x0 (ix3 a b f)) * (x1 (ix3 a b f) - x0 (ix3 a b f)) * weight (x1 (ix3 a b (0 : Fin 5))) := by
  have e : idx_main_v7 (idx_main_v8 (ix3 a b f)) = ix2 a b := funext fun d => Fin.ext (by
    match d with
    | ⟨0, _⟩ => rfl
    | ⟨1, _⟩ => rfl)
  rw [val_main_v9_apply, val_main_v6_apply, val_main_v5_apply, val_main_v8_apply, val_main_v7_apply, e, mask_at]
  rfl

/-- The squared predicted confidence at cell (a, b), -/
theorem conf_at (x0 : FVec Ideal S512x10647x5 .f32) (a : Fin 512) (b : Fin 10647) :
    val_main_v19 (F := Ideal) x0 (ix2 a b) = x0 (ix3 a b (0 : Fin 5)) * x0 (ix3 a b (0 : Fin 5)) := by
  have e : idx_main_v17 (idx_main_v18 (ix2 a b)) = ix3 a b (0 : Fin 5) := funext fun d => Fin.ext (by
    have ha := a.isLt; have hb := b.isLt
    match d with
    | ⟨0, _⟩ => show (a.val * 10647 + b.val) / 10647 = a.val; omega
    | ⟨1, _⟩ => show (a.val * 10647 + b.val) / 1 % 10647 = b.val; omega
    | ⟨2, _⟩ => rfl)
  rw [val_main_v19_apply, val_main_v18_apply, val_main_v17_apply, e]
  rfl

/-- and the same weighted. -/
theorem confSel_at (x0 x1 : FVec Ideal S512x10647x5 .f32) (a : Fin 512) (b : Fin 10647) :
    val_main_v14 (F := Ideal) x0 x1 (ix2 a b)
      = x0 (ix3 a b (0 : Fin 5)) * x0 (ix3 a b (0 : Fin 5)) * weight (x1 (ix3 a b (0 : Fin 5))) := by
  have e : idx_main_v11 (idx_main_v12 (ix2 a b)) = ix3 a b (0 : Fin 5) := funext fun d => Fin.ext (by
    have ha := a.isLt; have hb := b.isLt
    match d with
    | ⟨0, _⟩ => show (a.val * 10647 + b.val) / 10647 = a.val; omega
    | ⟨1, _⟩ => show (a.val * 10647 + b.val) / 1 % 10647 = b.val; omega
    | ⟨2, _⟩ => rfl)
  rw [val_main_v14_apply, val_main_v13_apply, val_main_v12_apply, val_main_v11_apply, e, mask_at]
  rfl

/-- THE REFERENCE'S RESULT is the loss of the rows of its two arguments. -/
theorem result_eq (x0 x1 : FVec Ideal S512x10647x5 .f32) (i : S_.Idx) :
    val_main_v23 (F := Ideal) x0 x1 i = loss (rows x0) (rows x1) := by
  have h1 : ∑ j, val_main_v9 (F := Ideal) x0 x1 j = ∑ a : Fin 512, ∑ b : Fin 10647, ∑ f : Fin 5,
      (x1 (ix3 a b f) - x0 (ix3 a b f)) * (x1 (ix3 a b f) - x0 (ix3 a b f)) * weight (x1 (ix3 a b (0 : Fin 5))) := by
    rw [Cert.LibLossSums.sum_idx3]
    exact Finset.sum_congr rfl fun a _ => Finset.sum_congr rfl fun b _ => Finset.sum_congr rfl fun f _ => sq_at x0 x1 a b f
  have h2 : ∑ j, val_main_v19 (F := Ideal) x0 j
      = ∑ a : Fin 512, ∑ b : Fin 10647, x0 (ix3 a b (0 : Fin 5)) * x0 (ix3 a b (0 : Fin 5)) := by
    rw [sum_idx2]
    exact Finset.sum_congr rfl fun a _ => Finset.sum_congr rfl fun b _ => conf_at x0 a b
  have h3 : ∑ j, val_main_v14 (F := Ideal) x0 x1 j
      = ∑ a : Fin 512, ∑ b : Fin 10647, x0 (ix3 a b (0 : Fin 5)) * x0 (ix3 a b (0 : Fin 5)) * weight (x1 (ix3 a b (0 : Fin 5))) := by
    rw [sum_idx2]
    exact Finset.sum_congr rfl fun a _ => Finset.sum_congr rfl fun b _ => confSel_at x0 x1 a b
  rw [loss_rows, val_main_v23_apply, val_main_v22_apply, val_main_v10_apply, val_main_v21_apply, val_main_v20_apply,
    val_main_v16_apply, val_main_v15_apply, h1, h2, h3]
  unfold loss3
  show ((Ideal.ofBits .f32 0x00000000#32 + _) + alpha * (Ideal.ofBits .f32 0x00000000#32 + _))
    - alpha * (Ideal.ofBits .f32 0x00000000#32 + _) = _
  rw [Ideal.ofBits_zero_f32, zero_add, zero_add, zero_add]

end Cert.ReferenceIdeal.RefValue

end
-- ==== Proof.Claims.lean ====
/-
  The five claims.

  The two kernel programs run, terminate and leave their arguments unchanged: their frames are generated whole. The
  reference's frame is its run with the result dropped. No operation was rewritten when the kernel was idealized, so
  there is nothing to preserve. And on the extended reals, from memories that agree on the two arguments and whose
  entries are finite, both programs end with the same scalar: the loss of the 5451264 rows of the two arguments — the
  kernel as zero plus its two sweeps' sums of block terms, the reference from its three whole sums.
-/
import proofs.«130284_j60782377173145_1_alg».proof.Defs
import proofs.«130284_j60782377173145_1_alg».proof.Proof.Gen.Kernel.Frame
import proofs.«130284_j60782377173145_1_alg».proof.Proof.Gen.KernelIdeal.Frame
import proofs.«130284_j60782377173145_1_alg».proof.Proof.Gen.Pre_finite_inputs
import proofs.«130284_j60782377173145_1_alg».proof.Proof.LossFinal
import proofs.«130284_j60782377173145_1_alg».proof.Proof.LossFinite
import proofs.«130284_j60782377173145_1_alg».proof.Proof.Reference

noncomputable section

open Idealize.ShloMosaic Idealize.ShloMosaic.TcCoe Idealize.SL.Sem

namespace Cert.Proof.LossClaims

open Cert.Loss

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the loss of the rows of the kernel's two arguments. -/
theorem algebraic : Cert.algebraic_KernelIdeal_ReferenceIdeal := by
  intro m ρ m' ρ' hpre hagree
  have hreal := fun c : Dev Cert.KernelIdeal.nD => Cert.Finite.entries_real _ _ (hpre c)
  refine ⟨fun c _ => loss
      (rows (m ((c.tc : Thread Cert.KernelIdeal.nD Cert.KernelIdeal.τ).loc Cert.KernelIdeal.main_arg0)))
      (rows (m ((c.tc : Thread Cert.KernelIdeal.nD Cert.KernelIdeal.τ).loc Cert.KernelIdeal.main_arg1))), ?_, ?_⟩
  · refine (θ_run Cert.KernelIdeal.defs _ _).mono (fun r h c => ⟨?_, ?_, ?_⟩) (Cert.KernelIdeal.Gen.run_main m ρ)
    · refine ((h c).2 Cert.KernelIdeal.main_v3 (Pipeline.mem_restRefs_of Cert.KernelIdeal.main_v3 (by decide) (by decide))).trans ?_
      exact funext fun i => (Cert.KernelIdeal.Final.tail_eq m c i).trans
        (Cert.KernelIdeal.Final.total m c (hreal c).1 (hreal c).2)
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, (hagree c).1, (hagree c).2]
    exact funext fun i => Cert.ReferenceIdeal.RefValue.result_eq _ _ i

end Cert.Proof.LossClaims

end
-- ==== Proof.lean ====
/-
  The certificate of a masked squared-error loss: a Pallas kernel that sweeps the 5451264 rows of two [512, 10647, 5]
  arrays in 2 × 169 tiles of 16128 rows, accumulating per tile (D + α · B) − α · C of the tile's weighted squared errors,
  squared confidences and selected squared confidences, against the plain reference that forms the same expression from
  the three whole sums. The claims are proved in Proof/Claims.lean over: the quantity and the law that joins the two
  arrangements on real numbers (Proof/LossSpec.lean, Proof/LossRows.lean), one step of the kernel (Proof/LossStep.lean),
  what each case of the body leaves (Proof/LossPieces.lean), the accumulator along a sweep (Proof/LossChain.lean), the
  tiles as blocks of rows (Proof/LossTiles.lean), the result array and the host's final sum (Proof/LossFinal.lean), the
  reference's three sums (Proof/Reference.lean), and the precondition read as "every entry is real"
  (Proof/LossFinite.lean).
-/
import proofs.«130284_j60782377173145_1_alg».proof.Defs
import proofs.«130284_j60782377173145_1_alg».proof.Proof.Gen.Kernel
import proofs.«130284_j60782377173145_1_alg».proof.Proof.Gen.KernelIdeal
import proofs.«130284_j60782377173145_1_alg».proof.Proof.Gen.ReferenceIdeal
import proofs.«130284_j60782377173145_1_alg».proof.Proof.Gen.Pre_finite_inputs
import proofs.«130284_j60782377173145_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    LossClaims.frame_k, LossClaims.frame_ki, LossClaims.frame_ri, LossClaims.preserves, LossClaims.algebraic⟩

end Cert.Proof

end
